-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S128x4096 : Shape := ⟨2, ![128, 4096]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S8x16 : Shape := ⟨2, ![8, 16]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S128x4096 : S_.BroadcastsInDim S128x4096 (![] : Fin 0 → Fin S128x4096.rank)
  reducesTo_S128x4096_S_d0_1 : S128x4096.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S8x16 : S_.BroadcastsInDim S8x16 (![] : Fin 0 → Fin S8x16.rank)
  reducesTo_S8x16_S_d0_1 : S8x16.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x8 .f32) (main_arg12 : FVec F S1 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S1x8 .f32 := Host.absf main_arg11
  let main_cst_20 : FVec F S_ .f32 := constant S_ .f32 0x7F800000#32
  let main_v55 : FVec F S1x8 .f32 := broadcastInDim S1x8 ![] bcast_S_S1x8 main_cst_20
  let main_v56 : IVec S1x8 1 := cmpf .olt main_v54 main_v55
  let main_c_21 : IVec S_ 1 := constantI S_ 1 1#1
  let main_v57 : IVec S_ 1 := (fun x v => Host.reduce IntOp.andi x v reducesTo_S1x8_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S16x32 .f32) (main_arg8 : FVec F S16 .f32) (main_arg9 : FVec F S8x16 .f32) (main_arg10 : FVec F S8 .f32) (main_arg11 : FVec F S1x8 .f32) (main_arg12 : FVec F S1 .f32) (main_v33 : IVec S_ 1) : IVec S_ 1 :=
  let main_v34 : FVec F S16x32 .f32 := Host.absf main_arg7
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S8x16 .f32 := Host.absf main_arg9
  let main_cst_16 : FVec F S_ .f32 := constant S_ .f32 0x7F800000#32
  let main_v45 : FVec F S8x16 .f32 := broadcastInDim S8x16 ![] bcast_S_S8x16 main_cst_16
  let main_v46 : IVec S8x16 1 := cmpf .olt main_v44 main_v45
  let main_c_17 : IVec S_ 1 := constantI S_ 1 1#1
  let main_v47 : IVec S_ 1 := (fun x v => Host.reduce IntOp.andi x v reducesTo_S8x16_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_v48 main_v49 main_v50

def fn_part1 {F : FTy → Type} [FloatOps F] (main_arg4 : FVec F S64 .f32) (main_arg5 : FVec F S32x64 .f32) (main_arg6 : FVec F S32 .f32) (main_arg7 : FVec F S16x32 .f32) (main_arg8 : FVec F S16 .f32) (main_arg9 : FVec F S8x16 .f32) (main_arg10 : FVec F S8 .f32) (main_arg11 : FVec F S1x8 .f32) (main_arg12 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S32x64 .f32 := Host.absf main_arg5
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x4096 .f32) (main_arg1 : FVec F S128x4096 .f32) (main_arg2 : FVec F S128 .f32) (main_arg3 : FVec F S64x128 .f32) (main_arg4 : FVec F S64 .f32) (main_arg5 : FVec F S32x64 .f32) (main_arg6 : FVec F S32 .f32) (main_arg7 : FVec F S16x32 .f32) (main_arg8 : FVec F S16 .f32) (main_arg9 : FVec F S8x16 .f32) (main_arg10 : FVec F S8 .f32) (main_arg11 : FVec F S1x8 .f32) (main_arg12 : FVec F S1 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S128x4096 .f32 := Host.absf main_arg1
  let main_cst_0 : FVec F S_ .f32 := constant S_ .f32 0x7F800000#32
  let main_v5 : FVec F S128x4096 .f32 := broadcastInDim S128x4096 ![] bcast_S_S128x4096 main_cst_0
  let main_v6 : IVec S128x4096 1 := cmpf .olt main_v4 main_v5
  let main_c_1 : IVec S_ 1 := constantI S_ 1 1#1
  let main_v7 : IVec S_ 1 := (fun x v => Host.reduce IntOp.andi x v reducesTo_S128x4096_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_arg9 main_arg10 main_arg11 main_arg12 main_v13 main_v16
-- ==== Kernel.lean ====
abbrev S8192x4096 : Shape := ⟨2, ![8192, 4096]⟩
abbrev S128x4096 : Shape := ⟨2, ![128, 4096]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S8x16 : Shape := ⟨2, ![8, 16]⟩
abbrev S8 : Shape := ⟨1, ![8]⟩
abbrev S1x8 : Shape := ⟨2, ![1, 8]⟩
abbrev S1 : Shape := ⟨1, ![1]⟩
abbrev S8192x1 : Shape := ⟨2, ![8192, 1]⟩
abbrev S512x4096 : Shape := ⟨2, ![512, 4096]⟩
abbrev S512x1 : Shape := ⟨2, ![512, 1]⟩
abbrev S512x128 : Shape := ⟨2, ![512, 128]⟩
abbrev S1x128 : Shape := ⟨2, ![1, 128]⟩
abbrev S512x64 : Shape := ⟨2, ![512, 64]⟩
abbrev S1x64 : Shape := ⟨2, ![1, 64]⟩
abbrev S512x32 : Shape := ⟨2, ![512, 32]⟩
abbrev S1x32 : Shape := ⟨2, ![1, 32]⟩
abbrev S512x16 : Shape := ⟨2, ![512, 16]⟩
abbrev S1x16 : Shape := ⟨2, ![1, 16]⟩
abbrev S512x8 : Shape := ⟨2, ![512, 8]⟩
abbrev S512 : Shape := ⟨1, ![512]⟩
abbrev S1x1 : Shape := ⟨2, ![1, 1]⟩
abbrev S8192 : Shape := ⟨1, ![8192]⟩

abbrev nBuf : Space → Nat
  | .hbm => 15
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S128x4096, .f32⟩
  | .hbm, ⟨2, _⟩ => ⟨S128, .f32⟩
  | .hbm, ⟨3, _⟩ => ⟨S64x128, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S16x32, .f32⟩
  | .hbm, ⟨8, _⟩ => ⟨S16, .f32⟩
  | .hbm, ⟨9, _⟩ => ⟨S8x16, .f32⟩
  | .hbm, ⟨10, _⟩ => ⟨S8, .f32⟩
  | .hbm, ⟨11, _⟩ => ⟨S1x8, .f32⟩
  | .hbm, ⟨12, _⟩ => ⟨S1, .f32⟩
  | .hbm, ⟨13, _⟩ => ⟨S8192x1, .f32⟩
  | .hbm, ⟨14, _⟩ => ⟨S8192, .f32⟩
  | .local _ .vmem, ⟨0, _⟩ => ⟨S512x4096, .f32⟩
  | .local _ .vmem, ⟨1, _⟩ => ⟨S512x4096, .f32⟩
  | .local _ .vmem, ⟨2, _⟩ => ⟨S128x4096, .f32⟩
  | .local _ .vmem, ⟨3, _⟩ => ⟨S128, .f32⟩
  | .local _ .vmem, ⟨4, _⟩ => ⟨S64x128, .f32⟩
  | .local _ .vmem, ⟨5, _⟩ => ⟨S64, .f32⟩
  | .local _ .vmem, ⟨6, _⟩ => ⟨S32x64, .f32⟩
  | .local _ .vmem, ⟨7, _⟩ => ⟨S32, .f32⟩
  | .local _ .vmem, ⟨8, _⟩ => ⟨S16x32, .f32⟩
  | .local _ .vmem, ⟨9, _⟩ => ⟨S16, .f32⟩
  | .local _ .vmem, ⟨10, _⟩ => ⟨S8x16, .f32⟩
  | .local _ .vmem, ⟨11, _⟩ => ⟨S8, .f32⟩
  | .local _ .vmem, ⟨12, _⟩ => ⟨S1x8, .f32⟩
  | .local _ .vmem, ⟨13, _⟩ => ⟨S1, .f32⟩
  | .local _ .vmem, ⟨14, _⟩ => ⟨S512x1, .f32⟩
  | .local _ .vmem, ⟨15, _⟩ => ⟨S512x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S32x64_S32x64_0_0 : ∀ a, (![0, 0] : Fin 2 → Nat) a + S32x64.size a ≤ S32x64.size a
  h_S32x64 : 0 < S32x64.numel
  inb_S32_S32_0 : ∀ a, (![0] : Fin 1 → Nat) a + S32.size a ≤ S32.size a
  h_S32 : 0 < S32.numel
  shapeCasts_S32_S1x32 : S32.ShapeCasts S1x32
  broadcasts_S1x32_S512x32 : S1x32.Broadcasts S512x32
  inb_S16x32_S16x32_0_0 : ∀ a, (![0, 0] : Fin 2 → Nat) a + S16x32.size a ≤ S16x32.size a
  h_S16x32 : 0 < S16x32.numel
  inb_S16_S16_0 : ∀ a, (![0] : Fin 1 → Nat) a + S16.size a ≤ S16.size a
  h_S16 : 0 < S16.numel
  shapeCasts_S16_S1x16 : S16.ShapeCasts S1x16
  broadcasts_S1x16_S512x16 : S1x16.Broadcasts S512x16
  inb_S8x16_S8x16_0_0 : ∀ a, (![0, 0] : Fin 2 → Nat) a + S8x16.size a ≤ S8x16.size a
  h_S8x16 : 0 < S8x16.numel
  inb_S8_S8_0 : ∀ a, (![0] : Fin 1 → Nat) a + S8.size a ≤ S8.size a
  h_S8 : 0 < S8.numel
  shapeCasts_S8_S1x8 : S8.ShapeCasts S1x8
  broadcasts_S1x8_S512x8 : S1x8.Broadcasts S512x8
  inb_S1x8_S1x8_0_0 : ∀ a, (![0, 0] : Fin 2 → Nat) a + S1x8.size a ≤ S1x8.size a
  h_S1x8 : 0 < S1x8.numel
  reduces_S512x8_S512 : S512x8.Reduces [1] S512
  shapeCasts_S512_S512x1 : S512.ShapeCasts S512x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S8192x1_S8192 : S8192x1.ShapeCasts S8192
  dot_S512x4096_S128x4096_S512x128_1_1_0_0_n_n_wf : DotDims.WF S512x4096 S128x4096 S512x128 [1] [1] [0] [0] [] []
  dot_S512x128_S64x128_S512x64_1_1_0_0_n_n_wf : DotDims.WF S512x128 S64x128 S512x64 [1] [1] [0] [0] [] []
  dot_S512x64_S32x64_S512x32_1_1_0_0_n_n_wf : DotDims.WF S512x64 S32x64 S512x32 [1] [1] [0] [0] [] []
  dot_S512x32_S16x32_S512x16_1_1_0_0_n_n_wf : DotDims.WF S512x32 S16x32 S512x16 [1] [1] [0] [0] [] []
  dot_S512x16_S8x16_S512x8_1_1_0_0_n_n_wf : DotDims.WF S512x16 S8x16 S512x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .f32 = 32 ∨ (Rect.block (s := S128x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x32.size a ≤ S16x32.size a
  hwx0_7 : ∀ i : grid0.Coords, EltTy.bits .f32 = 32 ∨ (Rect.block (s := S16x32) S16x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16.size a ≤ S16.size a
  hwx0_8 : ∀ i : grid0.Coords, EltTy.bits .f32 = 32 ∨ (Rect.block (s := S16) S16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x16.size a ≤ S8x16.size a
  hwx0_9 : ∀ i : grid0.Coords, EltTy.bits .f32 = 32 ∨ (Rect.block (s := S8x16) S8x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8.size a ≤ S8.size a
  hwx0_10 : ∀ i : grid0.Coords, EltTy.bits .f32 = 32 ∨ (Rect.block (s := S8) S8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x8.size a ≤ S1x8.size a
  hwx0_11 : ∀ i : grid0.Coords, EltTy.bits .f32 = 32 ∨ (Rect.block (s := S1x8) S1x8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x1.size a ≤ S8192x1.size a
  hwx0_13 : ∀ i : grid0.Coords, EltTy.bits .f32 = 32 ∨ (Rect.block (s := S8192x1) S512x1.size (cc0_transform_13 i) (hinb0_13 i)).WholeWords (EltTy.packing .f32)

variable [Facts₀]

def dot_S512x4096_S128x4096_S512x128_1_1_0_0_n_n : DotDims S512x4096 S128x4096 S512x128 where
  lhsContracting := [1]
  rhsContracting := [1]
  lhsNonContracting := [0]
  rhsNonContracting := [0]
  lhsBatch := []
  rhsBatch := []
  wf := dot_S512x4096_S128x4096_S512x128_1_1_0_0_n_n_wf
def dot_S512x128_S64x128_S512x64_1_1_0_0_n_n : DotDims S512x128 S64x128 S512x64 where
  lhsContracting := [1]
  rhsContracting := [1]
  lhsNonContracting := [0]
  rhsNonContracting := [0]
  lhsBatch := []
  rhsBatch := []
  wf := dot_S512x128_S64x128_S512x64_1_1_0_0_n_n_wf
def dot_S512x64_S32x64_S512x32_1_1_0_0_n_n : DotDims S512x64 S32x64 S512x32 where
  lhsContracting := [1]
  rhsContracting := [1]
  lhsNonContracting := [0]
  rhsNonContracting := [0]
  lhsBatch := []
  rhsBatch := []
  wf := dot_S512x64_S32x64_S512x32_1_1_0_0_n_n_wf
def dot_S512x32_S16x32_S512x16_1_1_0_0_n_n : DotDims S512x32 S16x32 S512x16 where
  lhsContracting := [1]
  rhsContracting := [1]
  lhsNonContracting := [0]
  rhsNonContracting := [0]
  lhsBatch := []
  rhsBatch := []
  wf := dot_S512x32_S16x32_S512x16_1_1_0_0_n_n_wf
def dot_S512x16_S8x16_S512x8_1_1_0_0_n_n : DotDims S512x16 S8x16 S512x8 where
  lhsContracting := [1]
  rhsContracting := [1]
  lhsNonContracting := [0]
  rhsNonContracting := [0]
  lhsBatch := []
  rhsBatch := []
  wf := dot_S512x16_S8x16_S512x8_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S8x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S512x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S128x4096 : Shape := ⟨2, ![128, 4096]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S8x16 : Shape := ⟨2, ![8, 16]⟩
abbrev S8 : Shape := ⟨1, ![8]⟩
abbrev S1x8 : Shape := ⟨2, ![1, 8]⟩
abbrev S1 : Shape := ⟨1, ![1]⟩
abbrev S4096x128 : Shape := ⟨2, ![4096, 128]⟩
abbrev S8192x128 : Shape := ⟨2, ![8192, 128]⟩
abbrev S1x128 : Shape := ⟨2, ![1, 128]⟩
abbrev S_ : Shape := ⟨0, ![]⟩
abbrev S128x64 : Shape := ⟨2, ![128, 64]⟩
abbrev S8192x64 : Shape := ⟨2, ![8192, 64]⟩
abbrev S1x64 : Shape := ⟨2, ![1, 64]⟩
abbrev S64x32 : Shape := ⟨2, ![64, 32]⟩
abbrev S8192x32 : Shape := ⟨2, ![8192, 32]⟩
abbrev S1x32 : Shape := ⟨2, ![1, 32]⟩
abbrev S32x16 : Shape := ⟨2, ![32, 16]⟩
abbrev S8192x16 : Shape := ⟨2, ![8192, 16]⟩
abbrev S1x16 : Shape := ⟨2, ![1, 16]⟩
abbrev S16x8 : Shape := ⟨2, ![16, 8]⟩
abbrev S8192x8 : Shape := ⟨2, ![8192, 8]⟩
abbrev S8x1 : Shape := ⟨2, ![8, 1]⟩
abbrev S8192x1 : Shape := ⟨2, ![8192, 1]⟩
abbrev S1x1 : Shape := ⟨2, ![1, 1]⟩
abbrev S8192 : Shape := ⟨1, ![8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S128x4096, .f32⟩
  | .hbm, ⟨2, _⟩ => ⟨S128, .f32⟩
  | .hbm, ⟨3, _⟩ => ⟨S64x128, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S16x32, .f32⟩
  | .hbm, ⟨8, _⟩ => ⟨S16, .f32⟩
  | .hbm, ⟨9, _⟩ => ⟨S8x16, .f32⟩
  | .hbm, ⟨10, _⟩ => ⟨S8, .f32⟩
  | .hbm, ⟨11, _⟩ => ⟨S1x8, .f32⟩
  | .hbm, ⟨12, _⟩ => ⟨S1, .f32⟩
  | .hbm, ⟨13, _⟩ => ⟨S4096x128, .f32⟩
  | .hbm, ⟨14, _⟩ => ⟨S8192x128, .f32⟩
  | .hbm, ⟨15, _⟩ => ⟨S1x128, .f32⟩
  | .hbm, ⟨16, _⟩ => ⟨S8192x128, .f32⟩
  | .hbm, ⟨17, _⟩ => ⟨S8192x128, .f32⟩
  | .hbm, ⟨18, _⟩ => ⟨S_, .f32⟩
  | .hbm, ⟨19, _⟩ => ⟨S8192x128, .f32⟩
  | .hbm, ⟨20, _⟩ => ⟨S8192x128, .f32⟩
  | .hbm, ⟨21, _⟩ => ⟨S128x64, .f32⟩
  | .hbm, ⟨22, _⟩ => ⟨S8192x64, .f32⟩
  | .hbm, ⟨23, _⟩ => ⟨S1x64, .f32⟩
  | .hbm, ⟨24, _⟩ => ⟨S8192x64, .f32⟩
  | .hbm, ⟨25, _⟩ => ⟨S8192x64, .f32⟩
  | .hbm, ⟨26, _⟩ => ⟨S_, .f32⟩
  | .hbm, ⟨27, _⟩ => ⟨S8192x64, .f32⟩
  | .hbm, ⟨28, _⟩ => ⟨S8192x64, .f32⟩
  | .hbm, ⟨29, _⟩ => ⟨S64x32, .f32⟩
  | .hbm, ⟨30, _⟩ => ⟨S8192x32, .f32⟩
  | .hbm, ⟨31, _⟩ => ⟨S1x32, .f32⟩
  | .hbm, ⟨32, _⟩ => ⟨S8192x32, .f32⟩
  | .hbm, ⟨33, _⟩ => ⟨S8192x32, .f32⟩
  | .hbm, ⟨34, _⟩ => ⟨S_, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S32x16, .f32⟩
  | .hbm, ⟨40, _⟩ => ⟨S8192x16, .f32⟩
  | .hbm, ⟨41, _⟩ => ⟨S1x16, .f32⟩
  | .hbm, ⟨42, _⟩ => ⟨S8192x16, .f32⟩
  | .hbm, ⟨43, _⟩ => ⟨S8192x16, .f32⟩
  | .hbm, ⟨44, _⟩ => ⟨S_, .f32⟩
  | .hbm, ⟨45, _⟩ => ⟨S8192x16, .f32⟩
  | .hbm, ⟨46, _⟩ => ⟨S8192x16, .f32⟩
  | .hbm, ⟨47, _⟩ => ⟨S16x8, .f32⟩
  | .hbm, ⟨48, _⟩ => ⟨S8192x8, .f32⟩
  | .hbm, ⟨49, _⟩ => ⟨S1x8, .f32⟩
  | .hbm, ⟨50, _⟩ => ⟨S8192x8, .f32⟩
  | .hbm, ⟨51, _⟩ => ⟨S8192x8, .f32⟩
  | .hbm, ⟨52, _⟩ => ⟨S8x1, .f32⟩
  | .hbm, ⟨53, _⟩ => ⟨S8192x1, .f32⟩
  | .hbm, ⟨54, _⟩ => ⟨S1x1, .f32⟩
  | .hbm, ⟨55, _⟩ => ⟨S8192x1, .f32⟩
  | .hbm, ⟨56, _⟩ => ⟨S8192x1, .f32⟩
  | .hbm, ⟨57, _⟩ => ⟨S8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_cst : Ref sig .tc := ⟨.hbm, 26, rfl⟩
abbrev main_call1_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call2_cst : Ref sig .tc := ⟨.hbm, 44, rfl⟩
abbrev main_call2_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]

class Facts₀ : Prop where
  transposes_S128x4096_S4096x128_1_0 : S128x4096.Transposes [1, 0] S4096x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  transposes_S32x64_S64x32_1_0 : S32x64.Transposes [1, 0] S64x32
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  transposes_S16x32_S32x16_1_0 : S16x32.Transposes [1, 0] S32x16
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  transposes_S8x16_S16x8_1_0 : S8x16.Transposes [1, 0] S16x8
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  transposes_S1x8_S8x1_1_0 : S1x8.Transposes [1, 0] S8x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S8192x4096_S4096x128_S8192x128_1_0_0_1_n_n_wf : DotDims.WF S8192x4096 S4096x128 S8192x128 [1] [0] [0] [1] [] []
  dot_S8192x128_S128x64_S8192x64_1_0_0_1_n_n_wf : DotDims.WF S8192x128 S128x64 S8192x64 [1] [0] [0] [1] [] []
  dot_S8192x64_S64x32_S8192x32_1_0_0_1_n_n_wf : DotDims.WF S8192x64 S64x32 S8192x32 [1] [0] [0] [1] [] []
  dot_S8192x32_S32x16_S8192x16_1_0_0_1_n_n_wf : DotDims.WF S8192x32 S32x16 S8192x16 [1] [0] [0] [1] [] []
  dot_S8192x16_S16x8_S8192x8_1_0_0_1_n_n_wf : DotDims.WF S8192x16 S16x8 S8192x8 [1] [0] [0] [1] [] []
  dot_S8192x8_S8x1_S8192x1_1_0_0_1_n_n_wf : DotDims.WF S8192x8 S8x1 S8192x1 [1] [0] [0] [1] [] []

variable [Facts₀]

def dot_S8192x4096_S4096x128_S8192x128_1_0_0_1_n_n : DotDims S8192x4096 S4096x128 S8192x128 where
  lhsContracting := [1]
  rhsContracting := [0]
  lhsNonContracting := [0]
  rhsNonContracting := [1]
  lhsBatch := []
  rhsBatch := []
  wf := dot_S8192x4096_S4096x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def dot_S8192x16_S16x8_S8192x8_1_0_0_1_n_n : DotDims S8192x16 S16x8 S8192x8 where
  lhsContracting := [1]
  rhsContracting := [0]
  lhsNonContracting := [0]
  rhsNonContracting := [1]
  lhsBatch := []
  rhsBatch := []
  wf := dot_S8192x16_S16x8_S8192x8_1_0_0_1_n_n_wf
def dot_S8192x8_S8x1_S8192x1_1_0_0_1_n_n : DotDims S8192x8 S8x1 S8192x1 where
  lhsContracting := [1]
  rhsContracting := [0]
  lhsNonContracting := [0]
  rhsNonContracting := [1]
  lhsBatch := []
  rhsBatch := []
  wf := dot_S8192x8_S8x1_S8192x1_1_0_0_1_n_n_wf

class Facts : Prop extends Facts₀ where

variable [Facts]
-- ==== Proof.RowNet.lean ====
/-
  The function both programs compute, written once for ONE row of the batch.

  The model is a small multilayer perceptron applied to each of the 8192 rows of `x` independently:
  three dense layers 4096 → 128 → 64 → 32 (the first two followed by `max · 0`), the elementwise map
  `v ↦ sin (c · v) ²` with `c` the f32 word nearest π/2, two dense layers 32 → 16 → 8 (the first followed by
  `max · 0`), and a last inner product with the one row of the head's weights plus its one bias.
  A dense layer takes a row of activations `a` to `n ↦ (∑ k, a k · W n k) + b n`: every weight matrix is
  stored output-major, so the inner product runs over the trailing axis of both factors.

  Everything here is stated over the extended reals with plain `Fin`-indexed families; no program is
  imported. Sums over `Fin K` are Mathlib's commutative-monoid sums, so neither side's order of
  accumulation is visible, and no step needs the inputs to be finite.
-/
import Idealize.ShloMosaic.PureOps.Ideal
import Idealize.ShloMosaic.Lib.ValueIdx

noncomputable section

namespace Cert.RowNet

open Idealize.ShloMosaic Idealize.ShloMosaic.ValueIdx

/-- A rank-2 array read as a family of rows. -/
def mat {N K : ℕ} (w : (⟨2, ![N, K]⟩ : Shape).Idx → EReal) : Fin N → Fin K → EReal := fun n k => w (ix2 n k)

/-- A rank-1 array read as a family. -/
def vec {N : ℕ} (b : (⟨1, ![N]⟩ : Shape).Idx → EReal) : Fin N → EReal := fun n => b (ix1 n)

/-- Row `r` of a rank-2 array. -/
def row {R K : ℕ} (x : (⟨2, ![R, K]⟩ : Shape).Idx → EReal) (r : Fin R) : Fin K → EReal := fun k => x (ix2 r k)

/-- A dense layer on one row of activations: entry `n` is the inner product of the row with row `n` of the
    weights, plus entry `n` of the bias. -/
def affine {K N : ℕ} (a : Fin K → EReal) (W : Fin N → Fin K → EReal) (b : Fin N → EReal) (n : Fin N) : EReal :=
  (∑ k : Fin K, a k * W n k) + b n

/-- A dense layer followed by the positive part. -/
def reluLayer {K N : ℕ} (a : Fin K → EReal) (W : Fin N → Fin K → EReal) (b : Fin N → EReal) (n : Fin N) : EReal :=
  max (affine a W b n) 0

/-- The quarter-turn factor, as the f32 word both programs carry (the float nearest π/2); it is never evaluated. -/
def quarterTurn : EReal := Ideal.ofBits .f32 0x3FC90FDB#32

/-- `sin (c · v) ²`, the elementwise map between the encoder and the last two dense layers. -/
def sinSq (v : EReal) : EReal := Ideal.sin (quarterTurn * v) * Ideal.sin (quarterTurn * v)

/-- The activations after the third dense layer (the latent code of one row). -/
def latent (x : Fin 4096 → EReal) (W1 : Fin 128 → Fin 4096 → EReal) (b1 : Fin 128 → EReal)
    (W2 : Fin 64 → Fin 128 → EReal) (b2 : Fin 64 → EReal) (W3 : Fin 32 → Fin 64 → EReal) (b3 : Fin 32 → EReal) :
    Fin 32 → EReal :=
  affine (reluLayer (reluLayer x W1 b1) W2 b2) W3 b3

/-- The eight activations the head reads, from the latent code. -/
def preHead (z : Fin 32 → EReal) (V1 : Fin 16 → Fin 32 → EReal) (c1 : Fin 16 → EReal)
    (V2 : Fin 8 → Fin 16 → EReal) (c2 : Fin 8 → EReal) : Fin 8 → EReal :=
  affine (reluLayer (fun j => sinSq (z j)) V1 c1) V2 c2

/-- The model's output on one row. -/
def out (x : Fin 4096 → EReal) (W1 : Fin 128 → Fin 4096 → EReal) (b1 : Fin 128 → EReal)
    (W2 : Fin 64 → Fin 128 → EReal) (b2 : Fin 64 → EReal) (W3 : Fin 32 → Fin 64 → EReal) (b3 : Fin 32 → EReal)
    (V1 : Fin 16 → Fin 32 → EReal) (c1 : Fin 16 → EReal) (V2 : Fin 8 → Fin 16 → EReal) (c2 : Fin 8 → EReal)
    (h : Fin 8 → EReal) (d : EReal) : EReal :=
  (∑ k : Fin 8, preHead (latent x W1 b1 W2 b2 W3 b3) V1 c1 V2 c2 k * h k) + d

/-- The model on row `r` of a batch of 8192 rows, the parameters read off their arrays: what both programs leave at
    entry `r` of their result. -/
def rows (a0 : (⟨2, ![8192, 4096]⟩ : Shape).Idx → EReal) (a1 : (⟨2, ![128, 4096]⟩ : Shape).Idx → EReal)
    (a2 : (⟨1, ![128]⟩ : Shape).Idx → EReal) (a3 : (⟨2, ![64, 128]⟩ : Shape).Idx → EReal) (a4 : (⟨1, ![64]⟩ : Shape).Idx → EReal)
    (a5 : (⟨2, ![32, 64]⟩ : Shape).Idx → EReal) (a6 : (⟨1, ![32]⟩ : Shape).Idx → EReal) (a7 : (⟨2, ![16, 32]⟩ : Shape).Idx → EReal)
    (a8 : (⟨1, ![16]⟩ : Shape).Idx → EReal) (a9 : (⟨2, ![8, 16]⟩ : Shape).Idx → EReal) (a10 : (⟨1, ![8]⟩ : Shape).Idx → EReal)
    (a11 : (⟨2, ![1, 8]⟩ : Shape).Idx → EReal) (a12 : (⟨1, ![1]⟩ : Shape).Idx → EReal) (r : Fin 8192) : EReal :=
  out (row a0 r) (mat a1) (vec a2) (mat a3) (vec a4) (mat a5) (vec a6) (mat a7) (vec a8) (mat a9) (vec a10)
    (fun k => a11 (ix2 (0 : Fin 1) k)) (a12 (ix1 (0 : Fin 1)))

end Cert.RowNet

end
-- ==== Proof.BlockLayers.lean ====
/-
  The kernel's arithmetic on one block of 512 rows, read one entry at a time over the extended reals.

  Each `tpu.matmul` of the body contracts the trailing axis of a [512, K] block of activations with the
  trailing axis of an [N, K] weight matrix into a zero accumulator, so its entry (p, n) is the inner
  product `∑ k, a (p, k) · w (n, k)`; the rounding of both factors to bf16 is the identity on the
  extended reals. A bias enters as a [N] vector cast to [1, N] and repeated down the rows. Together
  these are `RowNet.affine` on row `p`. The head is a product with the one row of its weights summed
  along the lanes, kept as a [512, 1] column, plus the one bias entry.
-/
import proofs.«118911_j65481071407111_2_alg».proof.Proof.Gen.KernelIdeal.Skeleton
import proofs.«118911_j65481071407111_2_alg».proof.Proof.RowNet
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Cert.RowNet
open Idealize.ShloMosaic Idealize.ShloMosaic.ValueIdx

/-! ## A contraction of trailing axes -/

/-- What makes a contraction record "rows against rows": one contracted axis of extent `K`, the trailing
    one of both operands; the leading axis of the left operand is the result's leading axis and the
    leading axis of the right operand the result's trailing one. -/
structure RowDot {M K' N : ℕ} (D : DotDims ⟨2, ![M, K']⟩ ⟨2, ![N, K']⟩ ⟨2, ![M, N]⟩) (K : ℕ) : Prop where
  rank : D.contr.rank = 1
  size : D.contr.size ⟨0, by omega⟩ = K
  lhs0 : ∀ (j : (⟨2, ![M, N]⟩ : Shape).Idx) (q : D.contr.Idx), (D.lhsIdx j q 0).val = (j 0).val
  lhs1 : ∀ (j : (⟨2, ![M, N]⟩ : Shape).Idx) (q : D.contr.Idx), (D.lhsIdx j q 1).val = (q ⟨0, by omega⟩).val
  rhs0 : ∀ (j : (⟨2, ![M, N]⟩ : Shape).Idx) (q : D.contr.Idx), (D.rhsIdx j q 0).val = (j 1).val
  rhs1 : ∀ (j : (⟨2, ![M, N]⟩ : Shape).Idx) (q : D.contr.Idx), (D.rhsIdx j q 1).val = (q ⟨0, by omega⟩).val

/-- Such a matmul into the zero accumulator, at entry (p, n), is the inner product of row `p` of the left
    operand with row `n` of the right one. -/
theorem matmul_rows {M K N : ℕ} {φ₁ φ₂ : FTy} (D : DotDims ⟨2, ![M, K]⟩ ⟨2, ![N, K]⟩ ⟨2, ![M, N]⟩) (hD : RowDot D K)
    (a : FVec Ideal ⟨2, ![M, K]⟩ φ₁) (w : FVec Ideal ⟨2, ![N, K]⟩ φ₂) (p : Fin M) (n : Fin N) :
    matmul D none a w (constant ⟨2, ![M, N]⟩ .f32 0x00000000#32) (ix2 p n) = ∑ k : Fin K, a (ix2 p k) * w (ix2 n k) := by
  refine (Ideal.matmul_constant_zero_apply D none a w (ix2 p n)).trans ?_
  rw [← Equiv.sum_comp (contrEquiv1 D K hD.rank hD.size).symm]
  refine Finset.sum_congr rfl fun k _ => ?_
  have hk := contrEquiv1_symm_val D K hD.rank hD.size k
  have el : D.lhsIdx (ix2 p n) ((contrEquiv1 D K hD.rank hD.size).symm k) = ix2 p k := funext fun ax => Fin.ext (by
    match ax with
    | ⟨0, _⟩ => exact hD.lhs0 _ _
    | ⟨1, _⟩ => exact (hD.lhs1 _ _).trans hk)
  have er : D.rhsIdx (ix2 p n) ((contrEquiv1 D K hD.rank hD.size).symm k) = ix2 n k := funext fun ax => Fin.ext (by
    match ax with
    | ⟨0, _⟩ => exact hD.rhs0 _ _
    | ⟨1, _⟩ => exact (hD.rhs1 _ _).trans hk)
  rw [el, er]

theorem rowDot1 : RowDot dot_S512x4096_S128x4096_S512x128_1_1_0_0_n_n 4096 where
  rank := rfl
  size := rfl
  lhs0 j q := by
    unfold DotDims.lhsIdx
    rw [dif_neg (show ¬(0 : Fin S512x4096.rank) ∈ dot_S512x4096_S128x4096_S512x128_1_1_0_0_n_n.lhsBatch by decide), dif_pos (show (0 : Fin S512x4096.rank) ∈ dot_S512x4096_S128x4096_S512x128_1_1_0_0_n_n.lhsNonContracting by decide)]
    rfl
  lhs1 j q := dot_S512x4096_S128x4096_S512x128_1_1_0_0_n_n.lhsIdx_val_of_single rfl j q
  rhs0 j q := by
    unfold DotDims.rhsIdx
    rw [dif_neg (show ¬(0 : Fin S128x4096.rank) ∈ dot_S512x4096_S128x4096_S512x128_1_1_0_0_n_n.rhsBatch by decide), dif_pos (show (0 : Fin S128x4096.rank) ∈ dot_S512x4096_S128x4096_S512x128_1_1_0_0_n_n.rhsNonContracting by decide)]
    rfl
  rhs1 j q := dot_S512x4096_S128x4096_S512x128_1_1_0_0_n_n.rhsIdx_val_of_single rfl j q

theorem rowDot2 : RowDot dot_S512x128_S64x128_S512x64_1_1_0_0_n_n 128 where
  rank := rfl
  size := rfl
  lhs0 j q := by
    unfold DotDims.lhsIdx
    rw [dif_neg (show ¬(0 : Fin S512x128.rank) ∈ dot_S512x128_S64x128_S512x64_1_1_0_0_n_n.lhsBatch by decide), dif_pos (show (0 : Fin S512x128.rank) ∈ dot_S512x128_S64x128_S512x64_1_1_0_0_n_n.lhsNonContracting by decide)]
    rfl
  lhs1 j q := dot_S512x128_S64x128_S512x64_1_1_0_0_n_n.lhsIdx_val_of_single rfl j q
  rhs0 j q := by
    unfold DotDims.rhsIdx
    rw [dif_neg (show ¬(0 : Fin S64x128.rank) ∈ dot_S512x128_S64x128_S512x64_1_1_0_0_n_n.rhsBatch by decide), dif_pos (show (0 : Fin S64x128.rank) ∈ dot_S512x128_S64x128_S512x64_1_1_0_0_n_n.rhsNonContracting by decide)]
    rfl
  rhs1 j q := dot_S512x128_S64x128_S512x64_1_1_0_0_n_n.rhsIdx_val_of_single rfl j q

theorem rowDot3 : RowDot dot_S512x64_S32x64_S512x32_1_1_0_0_n_n 64 where
  rank := rfl
  size := rfl
  lhs0 j q := by
    unfold DotDims.lhsIdx
    rw [dif_neg (show ¬(0 : Fin S512x64.rank) ∈ dot_S512x64_S32x64_S512x32_1_1_0_0_n_n.lhsBatch by decide), dif_pos (show (0 : Fin S512x64.rank) ∈ dot_S512x64_S32x64_S512x32_1_1_0_0_n_n.lhsNonContracting by decide)]
    rfl
  lhs1 j q := dot_S512x64_S32x64_S512x32_1_1_0_0_n_n.lhsIdx_val_of_single rfl j q
  rhs0 j q := by
    unfold DotDims.rhsIdx
    rw [dif_neg (show ¬(0 : Fin S32x64.rank) ∈ dot_S512x64_S32x64_S512x32_1_1_0_0_n_n.rhsBatch by decide), dif_pos (show (0 : Fin S32x64.rank) ∈ dot_S512x64_S32x64_S512x32_1_1_0_0_n_n.rhsNonContracting by decide)]
    rfl
  rhs1 j q := dot_S512x64_S32x64_S512x32_1_1_0_0_n_n.rhsIdx_val_of_single rfl j q

theorem rowDot4 : RowDot dot_S512x32_S16x32_S512x16_1_1_0_0_n_n 32 where
  rank := rfl
  size := rfl
  lhs0 j q := by
    unfold DotDims.lhsIdx
    rw [dif_neg (show ¬(0 : Fin S512x32.rank) ∈ dot_S512x32_S16x32_S512x16_1_1_0_0_n_n.lhsBatch by decide), dif_pos (show (0 : Fin S512x32.rank) ∈ dot_S512x32_S16x32_S512x16_1_1_0_0_n_n.lhsNonContracting by decide)]
    rfl
  lhs1 j q := dot_S512x32_S16x32_S512x16_1_1_0_0_n_n.lhsIdx_val_of_single rfl j q
  rhs0 j q := by
    unfold DotDims.rhsIdx
    rw [dif_neg (show ¬(0 : Fin S16x32.rank) ∈ dot_S512x32_S16x32_S512x16_1_1_0_0_n_n.rhsBatch by decide), dif_pos (show (0 : Fin S16x32.rank) ∈ dot_S512x32_S16x32_S512x16_1_1_0_0_n_n.rhsNonContracting by decide)]
    rfl
  rhs1 j q := dot_S512x32_S16x32_S512x16_1_1_0_0_n_n.rhsIdx_val_of_single rfl j q

theorem rowDot5 : RowDot dot_S512x16_S8x16_S512x8_1_1_0_0_n_n 16 where
  rank := rfl
  size := rfl
  lhs0 j q := by
    unfold DotDims.lhsIdx
    rw [dif_neg (show ¬(0 : Fin S512x16.rank) ∈ dot_S512x16_S8x16_S512x8_1_1_0_0_n_n.lhsBatch by decide), dif_pos (show (0 : Fin S512x16.rank) ∈ dot_S512x16_S8x16_S512x8_1_1_0_0_n_n.lhsNonContracting by decide)]
    rfl
  lhs1 j q := dot_S512x16_S8x16_S512x8_1_1_0_0_n_n.lhsIdx_val_of_single rfl j q
  rhs0 j q := by
    unfold DotDims.rhsIdx
    rw [dif_neg (show ¬(0 : Fin S8x16.rank) ∈ dot_S512x16_S8x16_S512x8_1_1_0_0_n_n.rhsBatch by decide), dif_pos (show (0 : Fin S8x16.rank) ∈ dot_S512x16_S8x16_S512x8_1_1_0_0_n_n.rhsNonContracting by decide)]
    rfl
  rhs1 j q := dot_S512x16_S8x16_S512x8_1_1_0_0_n_n.rhsIdx_val_of_single rfl j q

/-! ## A dense layer on a block of rows -/

/-- A [N] vector cast to [1, N] and repeated down M rows reads, at (p, n), the vector at n. -/
theorem bias_apply {M N : ℕ} {α : Type} (b : (⟨1, ![N]⟩ : Shape).Idx → α) (hc : (⟨1, ![N]⟩ : Shape).ShapeCasts ⟨2, ![1, N]⟩)
    (hb : (⟨2, ![1, N]⟩ : Shape).Broadcasts ⟨2, ![M, N]⟩) (p : Fin M) (n : Fin N) :
    broadcastTo ⟨2, ![M, N]⟩ (shapeCast ⟨2, ![1, N]⟩ b hc) hb (ix2 p n) = b (ix1 n) :=
  (broadcastTo_1b_ab_apply _ hb p n).trans (shapeCast_a_1a_apply b hc 0 n)

/-- The kernel's dense layer — both factors rounded to bf16, contracted into zero, the bias repeated down
    the rows and added — at entry (p, n) is `affine` of row `p` of the activations. -/
theorem affine_apply {M K N : ℕ} (D : DotDims ⟨2, ![M, K]⟩ ⟨2, ![N, K]⟩ ⟨2, ![M, N]⟩) (hD : RowDot D K)
    (h1 h2 : FTy.bits .bf16 < FTy.bits .f32)
    (hc : (⟨1, ![N]⟩ : Shape).ShapeCasts ⟨2, ![1, N]⟩) (hb : (⟨2, ![1, N]⟩ : Shape).Broadcasts ⟨2, ![M, N]⟩)
    (a : FVec Ideal ⟨2, ![M, K]⟩ .f32) (w : FVec Ideal ⟨2, ![N, K]⟩ .f32) (b : FVec Ideal ⟨1, ![N]⟩ .f32) (p : Fin M) (n : Fin N) :
    addf (matmul D none (truncf .bf16 a h1) (truncf .bf16 w h2) (constant ⟨2, ![M, N]⟩ .f32 0x00000000#32))
        (broadcastTo ⟨2, ![M, N]⟩ (shapeCast ⟨2, ![1, N]⟩ b hc) hb) (ix2 p n)
      = affine (row a p) (mat w) (vec b) n := by
  refine (addf_apply _ _ (ix2 p n)).trans ?_
  exact congrArg₂ (· + ·) (matmul_rows D hD _ _ p n) (bias_apply b hc hb p n)

/-- The same for the whole row. -/
theorem affine_row {M K N : ℕ} (D : DotDims ⟨2, ![M, K]⟩ ⟨2, ![N, K]⟩ ⟨2, ![M, N]⟩) (hD : RowDot D K)
    (h1 h2 : FTy.bits .bf16 < FTy.bits .f32)
    (hc : (⟨1, ![N]⟩ : Shape).ShapeCasts ⟨2, ![1, N]⟩) (hb : (⟨2, ![1, N]⟩ : Shape).Broadcasts ⟨2, ![M, N]⟩)
    (a : FVec Ideal ⟨2, ![M, K]⟩ .f32) (w : FVec Ideal ⟨2, ![N, K]⟩ .f32) (b : FVec Ideal ⟨1, ![N]⟩ .f32) (p : Fin M) :
    row (addf (matmul D none (truncf .bf16 a h1) (truncf .bf16 w h2) (constant ⟨2, ![M, N]⟩ .f32 0x00000000#32))
        (broadcastTo ⟨2, ![M, N]⟩ (shapeCast ⟨2, ![1, N]⟩ b hc) hb)) p
      = affine (row a p) (mat w) (vec b) :=
  funext fun n => affine_apply D hD h1 h2 hc hb a w b p n

/-- The positive part against the zero splat, row by row. -/
theorem relu_row {M N : ℕ} (v : FVec Ideal ⟨2, ![M, N]⟩ .f32) (p : Fin M) :
    row (maximumf v (broadcast ⟨2, ![M, N]⟩ (Scalar.ofBits .f32 0x00000000#32))) p = fun n => max (row v p n) 0 := by
  funext n
  show max (v (ix2 p n)) (Ideal.ofBits .f32 0x00000000#32) = _
  rw [Ideal.ofBits_zero_f32]; rfl

/-- `sin (c · v) ²` with the splat of the quarter-turn word, row by row. -/
theorem sinSq_row {M N : ℕ} (v : FVec Ideal ⟨2, ![M, N]⟩ .f32) (p : Fin M) :
    row (mulf (sin (mulf (broadcast ⟨2, ![M, N]⟩ (Scalar.ofBits .f32 0x3FC90FDB#32)) v))
        (sin (mulf (broadcast ⟨2, ![M, N]⟩ (Scalar.ofBits .f32 0x3FC90FDB#32)) v))) p = fun j => sinSq (row v p j) := rfl

end Cert.KernelIdeal.Block

end
-- ==== Proof.BlockBody.lean ====
/-
  What the kernel's body stores for one block of 512 rows: at row `p` of the [512, 1] output block, the row
  function of `RowNet` applied to row `p` of the block of `x` and to the parameters.

  The body is the chain of `BlockLayers`: three dense layers (two followed by the positive part), the
  elementwise `sin (c · v) ²`, two more dense layers, then the head as a product with the one row of head
  weights repeated down the block, summed along the 8 lanes into a [512] vector, kept as a [512, 1]
  column, plus the one bias entry repeated down the block.
-/
import proofs.«118911_j65481071407111_2_alg».proof.Proof.BlockLayers

noncomputable section

namespace Cert.KernelIdeal.Block

open Cert.KernelIdeal Cert.KernelIdeal.Gen Cert.RowNet
open Idealize.ShloMosaic Idealize.ShloMosaic.ValueIdx

/-- A [512] vector kept as a [512, 1] column reads, at (p, u), the vector at p. -/
theorem column_apply {α : Type} (v : S512.Idx → α) (p : Fin 512) (u : Fin 1) :
    shapeCast S512x1 v shapeCasts_S512_S512x1 (ix2 p u) = v (ix1 p) :=
  shapeCast_apply v shapeCasts_S512_S512x1 (ix2 p u) (ix1 p) (by
    have hu : u.val = 0 := by omega
    rw [Shape.rowMajor_val_one, Shape.rowMajor_val_two]
    show p.val = p.val * 1 + u.val
    omega)

/-- The sum along the 8 lanes of a [512, 8] block, at row p, is the `Fin 8`-indexed sum of the row. -/
theorem lane_sum (src : FVec Ideal S512x8 .f32) (hφ : FKind.Formats .f32)
    (hacc : (0x00000000#32 : BitVec 32) = FKind.add.neutral .f32 hφ) (p : Fin 512) :
    multiReduction .add [1] S512 src 0x00000000#32 reduces_S512x8_S512 hφ hacc (ix1 p) = ∑ k : Fin 8, src (ix2 p k) := by
  refine (Ideal.multiReduction_add_single src 0x00000000#32 reduces_S512x8_S512 hφ hacc (ix1 p)).trans ?_
  refine Finset.sum_congr rfl fun k _ => congrArg src ?_
  funext ax; apply Fin.ext
  match ax with
  | ⟨0, _⟩ => rfl
  | ⟨1, _⟩ => rfl

/-- THE BODY'S STORED VALUE at row `p` of the output block is `RowNet.out` of row `p` of the block of `x`. -/
theorem stored_apply (x0 : FVec Ideal S512x4096 .f32) (x1 : FVec Ideal S128x4096 .f32) (x2 : FVec Ideal S128 .f32)
    (x3 : FVec Ideal S64x128 .f32) (x4 : FVec Ideal S64 .f32) (x5 : FVec Ideal S32x64 .f32) (x6 : FVec Ideal S32 .f32)
    (x7 : FVec Ideal S16x32 .f32) (x8 : FVec Ideal S16 .f32) (x9 : FVec Ideal S8x16 .f32) (x10 : FVec Ideal S8 .f32)
    (x11 : FVec Ideal S1x8 .f32) (x12 : FVec Ideal S1 .f32) (p : Fin 512) (u : Fin 1) :
    k0_pay1 (F := Ideal) (k0_pay2 (F := Ideal) x0 x1 x2 x3 x4 x5 x6 x7) x8 x9 x10 x11 x12 (ix2 p u)
      = out (row x0 p) (mat x1) (vec x2) (mat x3) (vec x4) (mat x5) (vec x6) (mat x7) (vec x8) (mat x9) (vec x10)
          (fun k => x11 (ix2 (0 : Fin 1) k)) (x12 (ix1 (0 : Fin 1))) := by
  obtain rfl : u = 0 := Subsingleton.elim _ _
  unfold k0_pay1 k0_pay2 out preHead latent
  refine (addf_apply _ _ (ix2 p 0)).trans ?_
  refine congrArg₂ (· + ·) ?_ (bias_apply x12 _ _ p 0)
  refine (column_apply _ p 0).trans ?_
  refine (lane_sum _ _ _ p).trans ?_
  refine Finset.sum_congr rfl fun k _ => ?_
  refine (mulf_apply _ _ (ix2 p k)).trans ?_
  refine congrArg₂ (· * ·) ?_ (broadcastTo_1b_ab_apply x11 _ p k)
  refine (affine_apply _ rowDot5 _ _ _ _ _ _ _ p k).trans ?_
  refine congrArg (fun a => affine a (mat x9) (vec x10) k) ?_
  dsimp only
  rw [relu_row, affine_row _ rowDot4, sinSq_row, affine_row _ rowDot3, relu_row,
    affine_row _ rowDot2, relu_row, affine_row _ rowDot1]
  rfl

end Cert.KernelIdeal.Block

end
-- ==== Proof.KernelValue.lean ====
/-
  From the kernel's blocks to its result array, and through the reshape that follows the region.

  The grid has 16 points. At point `t` the window of `x` is rows 512·t … 512·t + 511 (all 4096 columns), the
  window of every parameter is the whole parameter (block index 0 on every axis), and the output window is
  rows 512·t … 512·t + 511 of the [8192, 1] result column. So what point `t` writes back, at row `p` of its
  block, is the row function of row 512·t + p of `x`; the 16 blocks tile the column; and the column read as a
  [8192] vector is the program's result.
-/
import proofs.«118911_j65481071407111_2_alg».proof.Proof.Gen.KernelIdeal.Frame
import proofs.«118911_j65481071407111_2_alg».proof.Proof.BlockBody
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Cert.RowNet
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Entry `r` of the result: the row function of row `r` of `x` and the parameters, as the launch memory holds them. -/
def result (c : Dev nD) (r : Fin 8192) : EReal :=
  rows (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) r

theorem hz2 : (![0, 0] : Fin 2 → Nat) = fun _ => 0 := funext fun a => by fin_cases a <;> rfl
theorem hz1 : (![0] : Fin 1 → Nat) = fun _ => 0 := funext fun a => by fin_cases a <;> rfl

/-! ## The index maps over the grid -/

/-- The windows of `x` and of the output sit at block row `t`, block column 0. -/
theorem moving_idx : ∀ t : Fin cfg0.N, win0_0.index t (0 : Fin 2) = t.val ∧ win0_0.index t (1 : Fin 2) = 0
    ∧ win0_13.index t (0 : Fin 2) = t.val ∧ win0_13.index t (1 : Fin 2) = 0 :=
  (by decide +kernel : ∀ t : Fin grid0.N, _)

/-- Every parameter's window sits at block 0 on every axis. -/
theorem fixed_idx : ∀ t : Fin cfg0.N, (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) ∧ (∀ a, win0_7.index t a = 0)
    ∧ (∀ a, win0_8.index t a = 0) ∧ (∀ a, win0_9.index t a = 0) ∧ (∀ a, win0_10.index t a = 0) ∧ (∀ a, win0_11.index t a = 0)
    ∧ (∀ a, win0_12.index t a = 0) :=
  (by decide +kernel : ∀ t : Fin grid0.N, _)

/-! ## The input blocks -/

/-- Row `p` of the block of `x` at point `t` is row 512·t + p of `x`. -/
theorem x_row (c : Dev nD) (t : Fin cfg0.N) (p : Fin 512) (r : Fin 8192) (hr : r.val = t.val * 512 + p.val) :
    row (iblk m c 0 t : FVec Ideal S512x4096 .f32) p = row (m ((c.tc : Thread nD τ).loc main_arg0)) r := by
  funext k
  show V m c main_arg0 (((cfg0.win 0).blk t).view.emb (ix2 p k)) = V m c main_arg0 (ix2 r k)
  refine congrArg _ (funext fun a => Fin.ext ?_)
  obtain ⟨e0, e1, -, -⟩ := moving_idx t
  match a with
  | ⟨0, _⟩ => show win0_0.index t (0 : Fin 2) * 512 + 1 * p.val = r.val; rw [e0, hr]; omega
  | ⟨1, _⟩ => show win0_0.index t (1 : Fin 2) * 4096 + 1 * k.val = k.val; rw [e1]; omega

/-- The block of a parameter at any point is the whole parameter. -/
theorem param1 (c : Dev nD) (t : Fin cfg0.N) : (iblk m c 1 t : FVec Ideal S128x4096 .f32) = m ((c.tc : Thread nD τ).loc main_arg1) := by
  funext y
  show V m c main_arg1 (((cfg0.win 1).blk t).view.emb y) = V m c main_arg1 y
  exact congrArg _ (funext fun a => Fin.ext (win0_1.rect_emb_val_of_index_zero t a ((fixed_idx t).1 a) y))
theorem param2 (c : Dev nD) (t : Fin cfg0.N) : (iblk m c 2 t : FVec Ideal S128 .f32) = m ((c.tc : Thread nD τ).loc main_arg2) := by
  funext y
  show V m c main_arg2 (((cfg0.win 2).blk t).view.emb y) = V m c main_arg2 y
  exact congrArg _ (funext fun a => Fin.ext (win0_2.rect_emb_val_of_index_zero t a ((fixed_idx t).2.1 a) y))
theorem param3 (c : Dev nD) (t : Fin cfg0.N) : (iblk m c 3 t : FVec Ideal S64x128 .f32) = m ((c.tc : Thread nD τ).loc main_arg3) := by
  funext y
  show V m c main_arg3 (((cfg0.win 3).blk t).view.emb y) = V m c main_arg3 y
  exact congrArg _ (funext fun a => Fin.ext (win0_3.rect_emb_val_of_index_zero t a ((fixed_idx t).2.2.1 a) y))
theorem param4 (c : Dev nD) (t : Fin cfg0.N) : (iblk m c 4 t : FVec Ideal S64 .f32) = m ((c.tc : Thread nD τ).loc main_arg4) := by
  funext y
  show V m c main_arg4 (((cfg0.win 4).blk t).view.emb y) = V m c main_arg4 y
  exact congrArg _ (funext fun a => Fin.ext (win0_4.rect_emb_val_of_index_zero t a ((fixed_idx t).2.2.2.1 a) y))
theorem param5 (c : Dev nD) (t : Fin cfg0.N) : (iblk m c 5 t : FVec Ideal S32x64 .f32) = m ((c.tc : Thread nD τ).loc main_arg5) := by
  funext y
  show V m c main_arg5 (((cfg0.win 5).blk t).view.emb y) = V m c main_arg5 y
  exact congrArg _ (funext fun a => Fin.ext (win0_5.rect_emb_val_of_index_zero t a ((fixed_idx t).2.2.2.2.1 a) y))
theorem param6 (c : Dev nD) (t : Fin cfg0.N) : (iblk m c 6 t : FVec Ideal S32 .f32) = m ((c.tc : Thread nD τ).loc main_arg6) := by
  funext y
  show V m c main_arg6 (((cfg0.win 6).blk t).view.emb y) = V m c main_arg6 y
  exact congrArg _ (funext fun a => Fin.ext (win0_6.rect_emb_val_of_index_zero t a ((fixed_idx t).2.2.2.2.2.1 a) y))
theorem param7 (c : Dev nD) (t : Fin cfg0.N) : (iblk m c 7 t : FVec Ideal S16x32 .f32) = m ((c.tc : Thread nD τ).loc main_arg7) := by
  funext y
  show V m c main_arg7 (((cfg0.win 7).blk t).view.emb y) = V m c main_arg7 y
  exact congrArg _ (funext fun a => Fin.ext (win0_7.rect_emb_val_of_index_zero t a ((fixed_idx t).2.2.2.2.2.2.1 a) y))
theorem param8 (c : Dev nD) (t : Fin cfg0.N) : (iblk m c 8 t : FVec Ideal S16 .f32) = m ((c.tc : Thread nD τ).loc main_arg8) := by
  funext y
  show V m c main_arg8 (((cfg0.win 8).blk t).view.emb y) = V m c main_arg8 y
  exact congrArg _ (funext fun a => Fin.ext (win0_8.rect_emb_val_of_index_zero t a ((fixed_idx t).2.2.2.2.2.2.2.1 a) y))
theorem param9 (c : Dev nD) (t : Fin cfg0.N) : (iblk m c 9 t : FVec Ideal S8x16 .f32) = m ((c.tc : Thread nD τ).loc main_arg9) := by
  funext y
  show V m c main_arg9 (((cfg0.win 9).blk t).view.emb y) = V m c main_arg9 y
  exact congrArg _ (funext fun a => Fin.ext (win0_9.rect_emb_val_of_index_zero t a ((fixed_idx t).2.2.2.2.2.2.2.2.1 a) y))
theorem param10 (c : Dev nD) (t : Fin cfg0.N) : (iblk m c 10 t : FVec Ideal S8 .f32) = m ((c.tc : Thread nD τ).loc main_arg10) := by
  funext y
  show V m c main_arg10 (((cfg0.win 10).blk t).view.emb y) = V m c main_arg10 y
  exact congrArg _ (funext fun a => Fin.ext (win0_10.rect_emb_val_of_index_zero t a ((fixed_idx t).2.2.2.2.2.2.2.2.2.1 a) y))
theorem param11 (c : Dev nD) (t : Fin cfg0.N) : (iblk m c 11 t : FVec Ideal S1x8 .f32) = m ((c.tc : Thread nD τ).loc main_arg11) := by
  funext y
  show V m c main_arg11 (((cfg0.win 11).blk t).view.emb y) = V m c main_arg11 y
  exact congrArg _ (funext fun a => Fin.ext (win0_11.rect_emb_val_of_index_zero t a ((fixed_idx t).2.2.2.2.2.2.2.2.2.2.1 a) y))
theorem param12 (c : Dev nD) (t : Fin cfg0.N) : (iblk m c 12 t : FVec Ideal S1 .f32) = m ((c.tc : Thread nD τ).loc main_arg12) := by
  funext y
  show V m c main_arg12 (((cfg0.win 12).blk t).view.emb y) = V m c main_arg12 y
  exact congrArg _ (funext fun a => Fin.ext (win0_12.rect_emb_val_of_index_zero t a ((fixed_idx t).2.2.2.2.2.2.2.2.2.2.2 a) y))

/-! ## What a point writes back, the cover, the result column -/

/-- WHAT POINT `t` WRITES BACK is block `t` of the column `i ↦ result (i 0)`. -/
theorem flushed_eq (c : Dev nD) (t : Fin cfg0.N) :
    (dats m 0 c).flushed 13 t = ((cfg0.win 13).blk t).view.read (Elt Ideal) (fun i : S8192x1.Idx => result m c (i 0)) := by
  show (cfg0.win 13).cut (grid0.coords t) ((dats m 0 c).after 13 t) = _
  rw [after0_13]
  unfold out0_13
  rw [View.canon_unit_zero hz2]
  simp only [View.ld_unit_zero (S := S512x4096) hz2, View.ld_unit_zero (S := S128x4096) hz2, View.ld_unit_zero (S := S128) hz1,
    View.ld_unit_zero (S := S64x128) hz2, View.ld_unit_zero (S := S64) hz1, View.ld_unit_zero (S := S32x64) hz2,
    View.ld_unit_zero (S := S32) hz1, View.ld_unit_zero (S := S16x32) hz2, View.ld_unit_zero (S := S16) hz1,
    View.ld_unit_zero (S := S8x16) hz2, View.ld_unit_zero (S := S8) hz1, View.ld_unit_zero (S := S1x8) hz2,
    View.ld_unit_zero (S := S1) hz1]
  funext j
  obtain ⟨p, u, rfl⟩ : ∃ (p : Fin 512) (u : Fin 1), j = ix2 p u := ⟨j 0, j 1, eq_ix2 j⟩
  refine (Block.stored_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) p u).trans ?_
  rw [param1 m c t, param2 m c t, param3 m c t, param4 m c t, param5 m c t, param6 m c t, param7 m c t, param8 m c t,
    param9 m c t, param10 m c t, param11 m c t, param12 m c t]
  have hr : ((((cfg0.win 13).blk t).view.emb (ix2 p u)) 0).val = t.val * 512 + p.val := by
    show win0_13.index t (0 : Fin 2) * 512 + 1 * p.val = _
    rw [(moving_idx t).2.2.1]; omega
  rw [x_row m c t p _ hr]
  rfl

/-- An index of the column is in point `t`'s block iff each coordinate is in the block's range on its axis. -/
theorem mem_blk (t : Fin cfg0.N) (i : S8192x1.Idx) :
    i ∈ ((cfg0.win 13).blk t).view.set ↔ ∀ a : Fin 2, win0_13.index t a * S512x1.size a ≤ (i a).val
      ∧ (i a).val < win0_13.index t a * S512x1.size a + S512x1.size a := by
  show i ∈ ((View.whole main_v0).slice (win0_13.rect t)).set ↔ _
  rw [View.set_slice_whole, Rect.mem_set_unit]
  exact Iff.rfl

/-- The 16 blocks tile the column: row `r` is in the block of point r / 512. -/
theorem cover (i : S8192x1.Idx) : ∃ t : Fin cfg0.N, (cfg0.win 13).flush t = true ∧ i ∈ ((cfg0.win 13).blk t).view.set := by
  have h0 : (i 0).val < 8192 := (i 0).isLt
  have h1 : (i 1).val < 1 := (i 1).isLt
  have hN : cfg0.N = 16 := N_0
  obtain ⟨t, ht⟩ : ∃ t : Fin cfg0.N, t.val = (i 0).val / 512 := ⟨⟨(i 0).val / 512, by rw [hN]; omega⟩, rfl⟩
  refine ⟨t, flush0_13 t, ?_⟩
  rw [mem_blk]
  obtain ⟨-, -, e2, e3⟩ := moving_idx t
  intro a
  match a with
  | ⟨0, _⟩ =>
    show win0_13.index t (0 : Fin 2) * 512 ≤ (i 0).val ∧ (i 0).val < win0_13.index t (0 : Fin 2) * 512 + 512
    rw [e2, ht]; omega
  | ⟨1, _⟩ =>
    show win0_13.index t (1 : Fin 2) * 1 ≤ (i 1).val ∧ (i 1).val < win0_13.index t (1 : Fin 2) * 1 + 1
    rw [e3]; omega

/-- THE RESULT COLUMN after the region: entry (r, 0) is `result r`. -/
theorem column_final (c : Dev nD) : (dats m 0 c).arrAt 13 cfg0.N = fun i : S8192x1.Idx => result m c (i 0) :=
  (dats m 0 c).arrAt_eq_of_cover 13 _ (fun t _ => flushed_eq m c t) cover

/-! ## The reshape after the region, and the run -/

/-- The result buffer is none of the region's arrays: it is written by the reshape that follows. -/
theorem result_rest : main_v1 ∈ Pipeline.restRefs sig (cfgs (0 : Fin 1)).spec :=
  Pipeline.mem_restRefs_of main_v1 rfl (fun w => by fin_cases w <;> decide)

/-- THE RESULT after the reshape: the column read as a [8192] vector, entry `r` at `result r`. -/
theorem result_buffer (c : Dev nD) :
    Pipeline.afterTail₀ cfgs (dats m) 0 (V0 m) [hostOps1] c main_v1 = fun i : S8192.Idx => result m c (i 0) := by
  unfold Pipeline.afterTail₀
  show StableHlo.after hostOps1 _ (Proc.devRef .tc main_v1) = _
  after_results
  have e : Pipeline.withArrays (cfgs (0 : Fin 1)).spec c (V0 m c) (fun w => (dats m 0 c).arrAt w (cfgs (0 : Fin 1)).N) (Proc.devRef .tc main_v0)
      = fun i : S8192x1.Idx => result m c (i 0) :=
    (Pipeline.withArrays_arr spec0 launch0.win.arr_inj c _ _ 13).trans (column_final m c)
  funext i
  obtain ⟨r, rfl⟩ : ∃ r : Fin 8192, i = ix1 r := ⟨i 0, eq_ix1 i⟩
  refine (shapeCast_apply _ shapeCasts_S8192x1_S8192 (ix1 r) (ix2 r (0 : Fin 1)) (by
    rw [Shape.rowMajor_val_two, Shape.rowMajor_val_one]
    show r.val * 1 + 0 = r.val
    omega)).trans ?_
  exact congrFun e (ix2 r (0 : Fin 1))

/-- The run, read: the result buffer ends at `r ↦ result r`, every argument array unchanged. -/
theorem run : θ_run defs (onTc (τ := τ) (main (F := Ideal))) ⟨m, fun _ => 0, ρ⟩ fun r => ∀ c : Dev nD,
      r.2.mem ((c.tc : Thread nD τ).loc main_v1) = (fun i : S8192.Idx => result m c (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).2 main_v1 result_rest).trans (result_buffer m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c)))⟩)
    (run_main m ρ)

end Cert.KernelIdeal.Whole

end
-- ==== Proof.ReferenceRows.lean ====
/-
  The reference program, one operation at a time, is the row function of `RowNet`.

  Each of its dense layers is a `dot_general` of a [8192, K] array of activations with the TRANSPOSE of an
  [N, K] weight matrix, so entry (r, n) is `∑ k, a (r, k) · W (n, k)`, the inner product over the trailing
  axis of both; the bias is repeated down the rows; the positive part is `max · 0` against a splat of the
  zero word; `sin (c · v) ²` is taken entry by entry with the same quarter-turn word as the kernel's.
  The head is one more such product against the transposed [1, 8] row, the one bias entry added, and
  the [8192, 1] column read as a vector. Every layer below is stated for row `r` of the stage before it,
  and the last theorem composes them.
-/
import proofs.«118911_j65481071407111_2_alg».proof.Proof.Gen.ReferenceIdeal.Read
import proofs.«118911_j65481071407111_2_alg».proof.Proof.RowNet
import Idealize.ShloMosaic.PureOps.Ideal.Laws

noncomputable section

namespace Cert.ReferenceIdeal.Rows

open Cert.ReferenceIdeal Cert.ReferenceIdeal.Read Cert.RowNet
open Idealize.ShloMosaic Idealize.ShloMosaic.ValueIdx

/-- Two indices of a rank-2 shape with the same coordinates are equal; every index the generated
    read-at-an-index lemmas compose is settled this way, coordinate by coordinate. -/
local macro "coords2" : tactic =>
  `(tactic| (funext ax; apply Fin.ext; match ax with | ⟨0, _⟩ => rfl | ⟨1, _⟩ => rfl))
local macro "coords1" : tactic =>
  `(tactic| (funext ax; apply Fin.ext; match ax with | ⟨0, _⟩ => rfl))

variable (x0 : (⟨S8192x4096, .f32⟩ : BufTy).Contents (Elt Ideal)) (x1 : (⟨S128x4096, .f32⟩ : BufTy).Contents (Elt Ideal))
  (x2 : (⟨S128, .f32⟩ : BufTy).Contents (Elt Ideal)) (x3 : (⟨S64x128, .f32⟩ : BufTy).Contents (Elt Ideal))
  (x4 : (⟨S64, .f32⟩ : BufTy).Contents (Elt Ideal)) (x5 : (⟨S32x64, .f32⟩ : BufTy).Contents (Elt Ideal))
  (x6 : (⟨S32, .f32⟩ : BufTy).Contents (Elt Ideal)) (x7 : (⟨S16x32, .f32⟩ : BufTy).Contents (Elt Ideal))
  (x8 : (⟨S16, .f32⟩ : BufTy).Contents (Elt Ideal)) (x9 : (⟨S8x16, .f32⟩ : BufTy).Contents (Elt Ideal))
  (x10 : (⟨S8, .f32⟩ : BufTy).Contents (Elt Ideal)) (x11 : (⟨S1x8, .f32⟩ : BufTy).Contents (Elt Ideal))
  (x12 : (⟨S1, .f32⟩ : BufTy).Contents (Elt Ideal))

/-- The zero word is the extended real 0. -/
theorem zero_word : FloatOps.ofBits (F := Ideal) .f32 0x00000000#32 = 0 := Ideal.ofBits_zero_f32

/-! ## The encoder -/

theorem pre1 (r : Fin 8192) (n : Fin 128) :
    val_main_v4 (F := Ideal) x0 x1 x2 (ix2 r n) = affine (row x0 r) (mat x1) (vec x2) n := by
  rw [val_main_v4_apply, val_main_v1_apply, val_main_v3_apply, val_main_v2_apply, Ideal.addf_def]
  unfold affine
  refine congrArg₂ (· + ·) (Finset.sum_congr rfl fun k _ => ?_) (congrArg x2 (by coords1))
  rw [val_main_v0_apply]
  exact congrArg₂ (· * ·) (congrArg x0 (by coords2)) (congrArg x1 (by coords2))

theorem layer1 (r : Fin 8192) : row (val_main_v5 (F := Ideal) x0 x1 x2) r = reluLayer (row x0 r) (mat x1) (vec x2) := by
  funext n
  show val_main_v5 (F := Ideal) x0 x1 x2 (ix2 r n) = max (affine (row x0 r) (mat x1) (vec x2) n) 0
  rw [val_main_v5_apply, val_main_call0_v0_apply, val_main_call0_cst_apply, pre1, Ideal.maximumf_def, zero_word]

theorem pre2 (r : Fin 8192) (n : Fin 64) :
    val_main_v10 (F := Ideal) x0 x1 x2 x3 x4 (ix2 r n) = affine (row (val_main_v5 (F := Ideal) x0 x1 x2) r) (mat x3) (vec x4) n := by
  rw [val_main_v10_apply, val_main_v7_apply, val_main_v9_apply, val_main_v8_apply, Ideal.addf_def]
  unfold affine
  refine congrArg₂ (· + ·) (Finset.sum_congr rfl fun k _ => ?_) (congrArg x4 (by coords1))
  rw [val_main_v6_apply]
  exact congrArg₂ (· * ·) (congrArg (val_main_v5 (F := Ideal) x0 x1 x2) (by coords2)) (congrArg x3 (by coords2))

theorem layer2 (r : Fin 8192) :
    row (val_main_v11 (F := Ideal) x0 x1 x2 x3 x4) r = reluLayer (row (val_main_v5 (F := Ideal) x0 x1 x2) r) (mat x3) (vec x4) := by
  funext n
  show val_main_v11 (F := Ideal) x0 x1 x2 x3 x4 (ix2 r n) = max (affine (row (val_main_v5 (F := Ideal) x0 x1 x2) r) (mat x3) (vec x4) n) 0
  rw [val_main_v11_apply, val_main_call1_v0_apply, val_main_call1_cst_apply, pre2, Ideal.maximumf_def, zero_word]

theorem layer3 (r : Fin 8192) :
    row (val_main_v16 (F := Ideal) x0 x1 x2 x3 x4 x5 x6) r = affine (row (val_main_v11 (F := Ideal) x0 x1 x2 x3 x4) r) (mat x5) (vec x6) := by
  funext n
  show val_main_v16 (F := Ideal) x0 x1 x2 x3 x4 x5 x6 (ix2 r n) = _
  rw [val_main_v16_apply, val_main_v13_apply, val_main_v15_apply, val_main_v14_apply, Ideal.addf_def]
  unfold affine
  refine congrArg₂ (· + ·) (Finset.sum_congr rfl fun k _ => ?_) (congrArg x6 (by coords1))
  rw [val_main_v12_apply]
  exact congrArg₂ (· * ·) (congrArg (val_main_v11 (F := Ideal) x0 x1 x2 x3 x4) (by coords2)) (congrArg x5 (by coords2))

/-! ## The elementwise map -/

theorem sinSq_stage (r : Fin 8192) :
    row (val_main_v20 (F := Ideal) x0 x1 x2 x3 x4 x5 x6) r = fun j => sinSq (row (val_main_v16 (F := Ideal) x0 x1 x2 x3 x4 x5 x6) r j) := by
  funext j
  show val_main_v20 (F := Ideal) x0 x1 x2 x3 x4 x5 x6 (ix2 r j) = _
  rw [val_main_v20_apply, val_main_v19_apply, val_main_v18_apply, val_main_v17_apply, val_main_cst_apply]
  rfl

/-! ## The last two dense layers and the head -/

theorem pre4 (r : Fin 8192) (n : Fin 16) :
    val_main_v25 (F := Ideal) x0 x1 x2 x3 x4 x5 x6 x7 x8 (ix2 r n)
      = affine (row (val_main_v20 (F := Ideal) x0 x1 x2 x3 x4 x5 x6) r) (mat x7) (vec x8) n := by
  rw [val_main_v25_apply, val_main_v22_apply, val_main_v24_apply, val_main_v23_apply, Ideal.addf_def]
  unfold affine
  refine congrArg₂ (· + ·) (Finset.sum_congr rfl fun k _ => ?_) (congrArg x8 (by coords1))
  rw [val_main_v21_apply]
  exact congrArg₂ (· * ·) (congrArg (val_main_v20 (F := Ideal) x0 x1 x2 x3 x4 x5 x6) (by coords2)) (congrArg x7 (by coords2))

theorem layer4 (r : Fin 8192) :
    row (val_main_v26 (F := Ideal) x0 x1 x2 x3 x4 x5 x6 x7 x8) r
      = reluLayer (row (val_main_v20 (F := Ideal) x0 x1 x2 x3 x4 x5 x6) r) (mat x7) (vec x8) := by
  funext n
  show val_main_v26 (F := Ideal) x0 x1 x2 x3 x4 x5 x6 x7 x8 (ix2 r n) = max (affine _ (mat x7) (vec x8) n) 0
  rw [val_main_v26_apply, val_main_call2_v0_apply, val_main_call2_cst_apply, pre4, Ideal.maximumf_def, zero_word]

theorem layer5 (r : Fin 8192) :
    row (val_main_v31 (F := Ideal) x0 x1 x2 x3 x4 x5 x6 x7 x8 x9 x10) r
      = affine (row (val_main_v26 (F := Ideal) x0 x1 x2 x3 x4 x5 x6 x7 x8) r) (mat x9) (vec x10) := by
  funext n
  show val_main_v31 (F := Ideal) x0 x1 x2 x3 x4 x5 x6 x7 x8 x9 x10 (ix2 r n) = _
  rw [val_main_v31_apply, val_main_v28_apply, val_main_v30_apply, val_main_v29_apply, Ideal.addf_def]
  unfold affine
  refine congrArg₂ (· + ·) (Finset.sum_congr rfl fun k _ => ?_) (congrArg x10 (by coords1))
  rw [val_main_v27_apply]
  exact congrArg₂ (· * ·) (congrArg (val_main_v26 (F := Ideal) x0 x1 x2 x3 x4 x5 x6 x7 x8) (by coords2)) (congrArg x9 (by coords2))

/-- The head: entry `r` of the result is the inner product of row `r` of the last layer with the one row of
    the head's weights, plus the one bias entry. -/
theorem head (r : Fin 8192) :
    val_main_v37 (F := Ideal) x0 x1 x2 x3 x4 x5 x6 x7 x8 x9 x10 x11 x12 (ix1 r)
      = (∑ k : Fin 8, row (val_main_v31 (F := Ideal) x0 x1 x2 x3 x4 x5 x6 x7 x8 x9 x10) r k * x11 (ix2 (0 : Fin 1) k)) + x12 (ix1 (0 : Fin 1)) := by
  rw [val_main_v37_apply, val_main_v36_apply, val_main_v33_apply, val_main_v35_apply, val_main_v34_apply, Ideal.addf_def]
  refine congrArg₂ (· + ·) (Finset.sum_congr rfl fun k _ => ?_) (congrArg x12 (by coords1))
  rw [val_main_v32_apply]
  refine congrArg₂ (· * ·) (congrArg (val_main_v31 (F := Ideal) x0 x1 x2 x3 x4 x5 x6 x7 x8 x9 x10) ?_) (congrArg x11 (by coords2))
  funext ax; apply Fin.ext
  match ax with
  | ⟨0, _⟩ => show r.val / 1 = r.val; exact Nat.div_one _
  | ⟨1, _⟩ => rfl

/-- The reference's result at `r` is the row function of row `r` of `x` and the parameters. -/
theorem result_apply (r : Fin 8192) :
    val_main_v37 (F := Ideal) x0 x1 x2 x3 x4 x5 x6 x7 x8 x9 x10 x11 x12 (ix1 r)
      = out (row x0 r) (mat x1) (vec x2) (mat x3) (vec x4) (mat x5) (vec x6) (mat x7) (vec x8) (mat x9) (vec x10)
          (fun k => x11 (ix2 (0 : Fin 1) k)) (x12 (ix1 (0 : Fin 1))) := by
  rw [head, layer5, layer4, sinSq_stage, layer3, layer2, layer1]
  rfl

end Cert.ReferenceIdeal.Rows

end
-- ==== Proof.lean ====
/-
  The certificate of a fused multilayer perceptron against its plain reference, over the extended reals.

  Both programs apply one function to each of the 8192 rows of `x` (`RowNet.out`): dense layers
  4096 → 128 → 64 → 32 with `max · 0` after the first two, the map `v ↦ sin (c · v) ²` with `c` the f32 word
  nearest π/2 (the same word, 0x3FC90FDB, in both programs), dense layers 32 → 16 → 8 with `max · 0` after
  the first, and a last inner product with the head's one row of weights plus its one bias.
  The kernel computes it on 16 blocks of 512 rows, rounding each matmul's factors to bf16 (the identity on
  the extended reals) and taking the head as a lane sum; the reference on the whole batch with transposes
  and `dot_general`s. Entry by entry both are the same finite sums of products in the same grouping, and
  sums over a finite index are independent of order, so the two results are equal on every input: the
  precondition (finite inputs) is not used.

  `RowNet` states the row function; `ReferenceRows` reads the reference's operations as that function;
  `BlockLayers` and `BlockBody` read the kernel's body on a block; `KernelValue` goes from the blocks to the
  result array and through the reshape that follows the region. The three frames are the generated frame
  runs; the idealization rewrote nothing, so `preserves` asks nothing.
-/
import proofs.«118911_j65481071407111_2_alg».proof.Defs
import proofs.«118911_j65481071407111_2_alg».proof.Proof.Gen.Kernel
import proofs.«118911_j65481071407111_2_alg».proof.Proof.Gen.Kernel.Skeleton
import proofs.«118911_j65481071407111_2_alg».proof.Proof.Gen.Kernel.Launch
import proofs.«118911_j65481071407111_2_alg».proof.Proof.Gen.Kernel.Points
import proofs.«118911_j65481071407111_2_alg».proof.Proof.Gen.Kernel.Frame
import proofs.«118911_j65481071407111_2_alg».proof.Proof.Gen.KernelIdeal
import proofs.«118911_j65481071407111_2_alg».proof.Proof.Gen.KernelIdeal.Skeleton
import proofs.«118911_j65481071407111_2_alg».proof.Proof.Gen.KernelIdeal.Launch
import proofs.«118911_j65481071407111_2_alg».proof.Proof.Gen.KernelIdeal.Points
import proofs.«118911_j65481071407111_2_alg».proof.Proof.Gen.KernelIdeal.Frame
import proofs.«118911_j65481071407111_2_alg».proof.Proof.Gen.ReferenceIdeal
import proofs.«118911_j65481071407111_2_alg».proof.Proof.Gen.ReferenceIdeal.Run
import proofs.«118911_j65481071407111_2_alg».proof.Proof.Gen.ReferenceIdeal.Read
import proofs.«118911_j65481071407111_2_alg».proof.Proof.Gen.Pre_finite_inputs
import proofs.«118911_j65481071407111_2_alg».proof.Proof.KernelValue
import proofs.«118911_j65481071407111_2_alg».proof.Proof.ReferenceRows
import Idealize.ShloMosaic.Adequacy
import Idealize.ShloMosaic.Init

noncomputable section

namespace Cert.Proof

open Idealize.ShloMosaic Idealize.SL.Sem

/-- The word-level kernel runs and leaves its arguments unchanged: the generated frame run. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the arguments both programs end with entry `r` of the result at the row
    function of row `r` of `x`: the kernel by its blocks, the reference by its operations. -/
theorem algebraic : Cert.algebraic_KernelIdeal_ReferenceIdeal := by
  intro m ρ m' ρ' _ hagree
  refine ⟨fun c => (fun i : Cert.KernelIdeal.S8192.Idx => Cert.KernelIdeal.Whole.result m c (i 0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq]
  funext i
  obtain ⟨r, rfl⟩ : ∃ r : Fin 8192, i = ValueIdx.ix1 r := ⟨i 0, ValueIdx.eq_ix1 i⟩
  rw [Cert.ReferenceIdeal.Rows.result_apply]
  obtain ⟨e0, e1, e2, e3, e4, e5, e6, e7, e8, e9, e10, e11, e12⟩ := hagree c
  rw [e0, e1, e2, e3, e4, e5, e6, e7, e8, e9, e10, e11, e12]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
